-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S64x8193 : Shape := ⟨2, ![64, 8193]⟩
abbrev S512x64 : Shape := ⟨2, ![512, 64]⟩
abbrev S64 : Shape := ⟨1, ![64]⟩
abbrev S_ : Shape := ⟨0, ![]⟩

class Facts : Prop where
  bcast_S_S64x8193 : S_.BroadcastsInDim S64x8193 (![] : Fin 0 → Fin S64x8193.rank)
  reducesTo_S64x8193_S_d0_1 : S64x8193.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  slices_S64x8193_S64x8192_0_1 : S64x8193.Slices ![0, 1] S64x8192
  slices_S64x8193_S64x8192_0_0 : S64x8193.Slices ![0, 0] S64x8192
  bcast_S_S64x8192 : S_.BroadcastsInDim S64x8192 (![] : Fin 0 → Fin S64x8192.rank)
  reducesTo_S64x8192_S_d0_1 : S64x8192.ReducesTo [0, 1] S_

variable [Facts]

def fn_part1 {F : FTy → Type} [FloatOps F] (main_v13 : IVec S_ 1) (main_v16 : FVec F S64x8192 .f32) (main_cst_4 : FVec F S_ .f32) : IVec S_ 1 :=
  let main_v17 : FVec F S64x8192 .f32 := broadcastInDim S64x8192 ![] bcast_S_S64x8192 main_cst_4
  let main_v18 : FVec F S64x8192 .f32 := Host.divf main_v16 main_v17
  let main_v19 : FVec F S64x8192 .f32 := Host.floor main_v18
  let main_v20 : IVec S64x8192 32 := fptosi 32 main_v19
  let main_c_5 : IVec S_ 32 := constantI S_ 32 0#32
  let main_v21 : IVec S64x8192 32 := broadcastInDim S64x8192 ![] bcast_S_S64x8192 main_c_5
  let main_v22 : IVec S64x8192 32 := maxsi main_v20 main_v21
  let main_c_6 : IVec S_ 32 := constantI S_ 32 512#32
  let main_v23 : IVec S64x8192 32 := broadcastInDim S64x8192 ![] bcast_S_S64x8192 main_c_6
  let main_v24 : IVec S64x8192 1 := cmpi .slt main_v22 main_v23
  let main_c_7 : IVec S_ 1 := constantI S_ 1 1#1
  let main_v25 : IVec S_ 1 := (fun x v => Host.reduce IntOp.andi x v reducesTo_S64x8192_S_d0_1 h_S_) main_v24 main_c_7
  let main_v26 : IVec S_ 1 := andi main_v13 main_v25
  main_v26

def fn {F : FTy → Type} [FloatOps F] (main_arg0 : IVec S64x8192 32) (main_arg1 : FVec F S64x8193 .f32) (main_arg2 : FVec F S512x64 .f32) (main_arg3 : FVec F S64 .f32) : IVec S_ 1 :=
  let main_v0 : FVec F S64x8193 .f32 := Host.absf main_arg1
  let main_cst : FVec F S_ .f32 := constant S_ .f32 0x7F800000#32
  let main_v1 : FVec F S64x8193 .f32 := broadcastInDim S64x8193 ![] bcast_S_S64x8193 main_cst
  let main_v2 : IVec S64x8193 1 := cmpf .olt main_v0 main_v1
  let main_c : IVec S_ 1 := constantI S_ 1 1#1
  let main_v3 : IVec S_ 1 := (fun x v => Host.reduce IntOp.andi x v reducesTo_S64x8193_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8192 .f32 := (extractStridedSlice S64x8192 ![0, 1] · slices_S64x8193_S64x8192_0_1) main_arg1
  let main_v15 : FVec F S64x8192 .f32 := (extractStridedSlice S64x8192 ![0, 0] · slices_S64x8193_S64x8192_0_0) main_arg1
  let main_v16 : FVec F S64x8192 .f32 := subf main_v14 main_v15
  let main_cst_4 : FVec F S_ .f32 := constant S_ .f32 0x44F42400#32
  fn_part1 (F := F) main_v13 main_v16 main_cst_4
-- ==== Kernel.lean ====
abbrev S64x8192 : Shape := ⟨2, ![64, 8192]⟩
abbrev S64x8193 : Shape := ⟨2, ![64, 8193]⟩
abbrev S512x64 : Shape := ⟨2, ![512, 64]⟩
abbrev S64 : Shape := ⟨1, ![64]⟩
abbrev S_ : Shape := ⟨0, ![]⟩
abbrev S64x8192x64 : Shape := ⟨3, ![64, 8192, 64]⟩
abbrev S64x256 : Shape := ⟨2, ![64, 256]⟩
abbrev S64x256x64 : Shape := ⟨3, ![64, 256, 64]⟩
abbrev S64x256x512 : Shape := ⟨3, ![64, 256, 512]⟩
abbrev S64x256x1 : Shape := ⟨3, ![64, 256, 1]⟩
abbrev S16384x512 : Shape := ⟨2, ![16384, 512]⟩
abbrev S16384x64 : Shape := ⟨2, ![16384, 64]⟩
abbrev S1x1x64 : Shape := ⟨3, ![1, 1, 64]⟩

abbrev nBuf : Space → Nat
  | .hbm => 17
  | .vmem => 6
  | .smem => 0
  | _ => 0

abbrev bufTy : (tb : Table) → Fin (tcTables nBuf tb) → BufTy
  | .hbm, ⟨0, _⟩ => ⟨S64x8192, .i32⟩
  | .hbm, ⟨1, _⟩ => ⟨S64x8193, .f32⟩
  | .hbm, ⟨2, _⟩ => ⟨S512x64, .f32⟩
  | .hbm, ⟨3, _⟩ => ⟨S64, .f32⟩
  | .hbm, ⟨4, _⟩ => ⟨S64x8192, .f32⟩
  | .hbm, ⟨5, _⟩ => ⟨S64x8192, .f32⟩
  | .hbm, ⟨6, _⟩ => ⟨S64x8192, .f32⟩
  | .hbm, ⟨7, _⟩ => ⟨S_, .f32⟩
  | .hbm, ⟨8, _⟩ => ⟨S64x8192, .f32⟩
  | .hbm, ⟨9, _⟩ => ⟨S64x8192, .f32⟩
  | .hbm, ⟨10, _⟩ => ⟨S64x8192, .f32⟩
  | .hbm, ⟨11, _⟩ => ⟨S64x8192, .i32⟩
  | .hbm, ⟨12, _⟩ => ⟨S_, .i32⟩
  | .hbm, ⟨13, _⟩ => ⟨S64x8192, .i32⟩
  | .hbm, ⟨14, _⟩ => ⟨S64x8192, .i32⟩
  | .hbm, ⟨15, _⟩ => ⟨S64x8192x64, .f32⟩
  | .hbm, ⟨16, _⟩ => ⟨S64x8192, .f32⟩
  | .local _ .vmem, ⟨0, _⟩ => ⟨S64x256, .i32⟩
  | .local _ .vmem, ⟨1, _⟩ => ⟨S64x256, .i32⟩
  | .local _ .vmem, ⟨2, _⟩ => ⟨S512x64, .f32⟩
  | .local _ .vmem, ⟨3, _⟩ => ⟨S64, .f32⟩
  | .local _ .vmem, ⟨4, _⟩ => ⟨S64x256x64, .f32⟩
  | .local _ .vmem, ⟨5, _⟩ => ⟨S64x256x64, .f32⟩
  | _, _ => ⟨S64x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x8193_S64x8192_0_1 : S64x8193.Slices ![0, 1] S64x8192
  slices_S64x8193_S64x8192_0_0 : S64x8193.Slices ![0, 0] S64x8192
  bcast_S_S64x8192 : S_.BroadcastsInDim S64x8192 (![] : Fin 0 → Fin S64x8192.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S64x256x512_d2_w32 : S64x256x512.Iotas .tc 32 [2]
  shapeCasts_S64x256_S64x256x1 : S64x256.ShapeCasts S64x256x1
  broadcasts_S64x256x1_S64x256x512 : S64x256x1.Broadcasts S64x256x512
  natLt_1_32 : 1 < 32
  bitsLt_bf16_f32 : FTy.bits .bf16 < FTy.bits .f32
  shapeCasts_S64x256x512_S16384x512 : S64x256x512.ShapeCasts S16384x512
  inb_S512x64_S512x64_0_0 : ∀ a, (![0, 0] : Fin 2 → Nat) a + S512x64.size a ≤ S512x64.size a
  h_S512x64 : 0 < S512x64.numel
  shapeCasts_S16384x64_S64x256x64 : S16384x64.ShapeCasts S64x256x64
  inb_S64_S64_0 : ∀ a, (![0] : Fin 1 → Nat) a + S64.size a ≤ S64.size a
  h_S64 : 0 < S64.numel
  shapeCasts_S64_S1x1x64 : S64.ShapeCasts S1x1x64
  broadcasts_S1x1x64_S64x256x64 : S1x1x64.Broadcasts S64x256x64
  inb_S64x256x64_S64x256x64_0_0_0 : ∀ a, (![0, 0, 0] : Fin 3 → Nat) a + S64x256x64.size a ≤ S64x256x64.size a
  h_S64x256x64 : 0 < S64x256x64.numel
  dot_S16384x512_S512x64_S16384x64_1_0_0_1_n_n_wf : DotDims.WF S16384x512 S512x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x8192.size a
  hwx0_0 : ∀ i : grid0.Coords, EltTy.bits .i32 = 32 ∨ (Rect.block (s := S64x8192) S64x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x64.size a ≤ S64x8192x64.size a
  hwx0_3 : ∀ i : grid0.Coords, EltTy.bits .f32 = 32 ∨ (Rect.block (s := S64x8192x64) S64x256x64.size (cc0_transform_3 i) (hinb0_3 i)).WholeWords (EltTy.packing .f32)

variable [Facts₀]

def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

abbrev win0_0 : Pipeline.Window sig grid0 :=
  Pipeline.Window.ofSpec (Memref.whole main_v8) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8192 : Shape := ⟨2, ![64, 8192]⟩
abbrev S64x8193 : Shape := ⟨2, ![64, 8193]⟩
abbrev S512x64 : Shape := ⟨2, ![512, 64]⟩
abbrev S64 : Shape := ⟨1, ![64]⟩
abbrev S_ : Shape := ⟨0, ![]⟩
abbrev S64x8192x1 : Shape := ⟨3, ![64, 8192, 1]⟩
abbrev S64x8192x64 : Shape := ⟨3, ![64, 8192, 64]⟩
abbrev S1x1x64 : Shape := ⟨3, ![1, 1, 64]⟩

abbrev nBuf : Space → Nat
  | .hbm => 28
  | .vmem => 0
  | .smem => 0
  | _ => 0

abbrev bufTy : (tb : Table) → Fin (tcTables nBuf tb) → BufTy
  | .hbm, ⟨0, _⟩ => ⟨S64x8192, .i32⟩
  | .hbm, ⟨1, _⟩ => ⟨S64x8193, .f32⟩
  | .hbm, ⟨2, _⟩ => ⟨S512x64, .f32⟩
  | .hbm, ⟨3, _⟩ => ⟨S64, .f32⟩
  | .hbm, ⟨4, _⟩ => ⟨S64x8192, .f32⟩
  | .hbm, ⟨5, _⟩ => ⟨S64x8192, .f32⟩
  | .hbm, ⟨6, _⟩ => ⟨S64x8192, .f32⟩
  | .hbm, ⟨7, _⟩ => ⟨S_, .f32⟩
  | .hbm, ⟨8, _⟩ => ⟨S64x8192, .f32⟩
  | .hbm, ⟨9, _⟩ => ⟨S64x8192, .f32⟩
  | .hbm, ⟨10, _⟩ => ⟨S64x8192, .f32⟩
  | .hbm, ⟨11, _⟩ => ⟨S64x8192, .i32⟩
  | .hbm, ⟨12, _⟩ => ⟨S_, .i32⟩
  | .hbm, ⟨13, _⟩ => ⟨S64x8192, .i32⟩
  | .hbm, ⟨14, _⟩ => ⟨S64x8192, .i32⟩
  | .hbm, ⟨15, _⟩ => ⟨S_, .i32⟩
  | .hbm, ⟨16, _⟩ => ⟨S64x8192, .i32⟩
  | .hbm, ⟨17, _⟩ => ⟨S64x8192, .i1⟩
  | .hbm, ⟨18, _⟩ => ⟨S_, .i32⟩
  | .hbm, ⟨19, _⟩ => ⟨S64x8192, .i32⟩
  | .hbm, ⟨20, _⟩ => ⟨S64x8192, .i32⟩
  | .hbm, ⟨21, _⟩ => ⟨S64x8192, .i32⟩
  | .hbm, ⟨22, _⟩ => ⟨S64x8192x1, .i32⟩
  | .hbm, ⟨23, _⟩ => ⟨S64x8192x64, .f32⟩
  | .hbm, ⟨24, _⟩ => ⟨S1x1x64, .f32⟩
  | .hbm, ⟨25, _⟩ => ⟨S64x8192x64, .f32⟩
  | .hbm, ⟨26, _⟩ => ⟨S64x8192x64, .f32⟩
  | .hbm, ⟨27, _⟩ => ⟨S64x8192, .f32⟩
  | _, _ => ⟨S64x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S64x8193_S64x8192_0_1 : S64x8193.Slices ![0, 1] S64x8192
  slices_S64x8193_S64x8192_0_0 : S64x8193.Slices ![0, 0] S64x8192
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  bcast_S64_S1x1x64_2 : S64.BroadcastsInDim S1x1x64 (![2] : Fin 1 → Fin S1x1x64.rank)
  bcast_S1x1x64_S64x8192x64_0_1_2 : S1x1x64.BroadcastsInDim S64x8192x64 (![0, 1, 2] : Fin 3 → Fin S64x8192x64.rank)
  gather_S512x64_S64x8192x1_S64x8192x64_2_0_n_n_0_2_164_wf : GatherDims.WF S512x64 S64x8192x1 S64x8192x64 [2] [0] [] [0] [] 2 ![1, 64]

variable [Facts₀]

def gather_S512x64_S64x8192x1_S64x8192x64_2_0_n_n_0_2_164 : GatherDims S512x64 S64x8192x1 S64x8192x64 where
  offsetDims := [2]
  collapsedSliceDims := [0]
  operandBatchingDims := []
  startIndicesBatchingDims := []
  startIndexMap := [0]
  indexVectorDim := 2
  sliceSizes := ![1, 64]
  wf := gather_S512x64_S64x8192x1_S64x8192x64_2_0_n_n_0_2_164_wf

class Facts : Prop extends Facts₀ where

variable [Facts]
-- ==== Proof.LibOneHot.lean ====
/-
  A one-hot row times a column, over the extended reals, and the row a signed 32-bit word names.

  A signed 32-bit word `w` with 0 ≤ w < N names row `w` of a table of N rows. Comparing `w` with each of the words
  0, 1, …, N − 1, widening each comparison bit to 32 bits and converting it to a float gives the one-hot row of `w`:
  1 at `w`'s own place and 0 elsewhere, exactly. Its product with any column `col : Fin N → EReal` — the sum over k of
  entry k times `col k` — is `col` at `w`'s row: every other term is 0 · x = 0 and the row's own is 1 · x = x, which hold
  for every extended real, infinite ones included, so nothing here asks for finiteness. This is what a matrix product
  with a one-hot left operand computes, entry by entry.

  `rowOf` clamps the word into [0, N − 1] first — what a gather does with its start index — so that it is a row for
  every word; on a word in range the clamp does nothing (`rowOf_val`). The wrap of a negative index (select between
  `w + c` and `w` on `w < 0`) does nothing to a word in range either (`wrap_of_inRange`).
-/
import Idealize.ShloMosaic.PureOps.Ideal
import Idealize.ShloMosaic.Lib.ValueIdx
import Idealize.ShloMosaic.Lib.Affine

noncomputable section

open scoped BigOperators

namespace Idealize.ShloMosaic.OneHot

open Idealize.ShloMosaic Idealize.ShloMosaic.ValueIdx

variable {N : Nat}

/-- The word, read signed, lies in [0, N): it names a row of a table of N rows. -/
def InRange (N : Nat) (w : BitVec 32) : Prop := 0 ≤ w.toInt ∧ w.toInt < N

/-- The row a word names once clamped into [0, N − 1], as a gather clamps its start index. -/
def rowOf (hN : 0 < N) (w : BitVec 32) : Fin N := ⟨min w.toInt.toNat (N - 1), by omega⟩

/-- A word in range read unsigned is below N. -/
theorem InRange.toNat_lt {w : BitVec 32} (h : InRange N w) : w.toNat < N := by
  obtain ⟨h0, h1⟩ := h
  have := BitVec.toInt_eq_toNat_cond w
  split at this <;> omega

/-- A word in range reads the same signed and unsigned. -/
theorem InRange.toInt_eq {w : BitVec 32} (h : InRange N w) : w.toInt = (w.toNat : Int) := by
  obtain ⟨h0, h1⟩ := h
  have := BitVec.toInt_eq_toNat_cond w
  split at this <;> omega

/-- The row of a word in range is the word itself. -/
theorem rowOf_val (hN : 0 < N) {w : BitVec 32} (h : InRange N w) : (rowOf hN w).val = w.toNat := by
  have hlt := h.toNat_lt
  show min w.toInt.toNat (N - 1) = w.toNat
  rw [h.toInt_eq, Int.toNat_natCast]
  omega

/-- A word in range equals the word of `k < N` exactly when `k` is its row. -/
theorem eq_ofNat_iff (hN : 0 < N) (hN32 : N ≤ 2 ^ 32) {w : BitVec 32} (h : InRange N w) (k : Fin N) :
    w = BitVec.ofNat 32 k.val ↔ k = rowOf hN w := by
  have hk : k.val < N := k.isLt
  constructor
  · intro e
    apply Fin.ext
    rw [rowOf_val hN h, e, BitVec.toNat_ofNat]
    omega
  · intro e
    have : k.val = w.toNat := by rw [e, rowOf_val hN h]
    rw [this, BitVec.ofNat_toNat, BitVec.setWidth_eq]

/-- One entry of the one-hot row: 1 at the word's own row and 0 elsewhere. -/
theorem onehot_entry (hN : 0 < N) (hN32 : N ≤ 2 ^ 32) {w : BitVec 32} (h : InRange N w) (k : Fin N) :
    FloatOps.sitofp (F := Ideal) .f32 ((IntOp.cmpi .eq w (BitVec.ofNat 32 k.val)).setWidth 32)
      = if k = rowOf hN w then (1 : EReal) else 0 := by
  by_cases hk : k = rowOf hN w
  · have e : IntOp.cmpi .eq w (BitVec.ofNat 32 k.val) = 1#1 := IntOp.cmpi_eq.2 ((eq_ofNat_iff hN hN32 h k).2 hk)
    rw [e, if_pos hk]
    show (((1#1 : BitVec 1).setWidth 32).toInt : ℝ) = (1 : EReal)
    rw [show ((1#1 : BitVec 1).setWidth 32).toInt = 1 from by decide]
    simp
  · have e : IntOp.cmpi .eq w (BitVec.ofNat 32 k.val) = 0#1 :=
      eq_zero_of_ne_one fun e1 => hk ((eq_ofNat_iff hN hN32 h k).1 (IntOp.cmpi_eq.1 e1))
    rw [e, if_neg hk]
    show (((0#1 : BitVec 1).setWidth 32).toInt : ℝ) = (0 : EReal)
    rw [show ((0#1 : BitVec 1).setWidth 32).toInt = 0 from by decide]
    simp

/-- THE LAW: the one-hot row of a word in range times a column is the column's entry at the word's row. -/
theorem onehot_sum (hN : 0 < N) (hN32 : N ≤ 2 ^ 32) {w : BitVec 32} (h : InRange N w) (col : Fin N → EReal) :
    ∑ k : Fin N, FloatOps.sitofp (F := Ideal) .f32 ((IntOp.cmpi .eq w (BitVec.ofNat 32 k.val)).setWidth 32) * col k
      = col (rowOf hN w) := by
  rw [Finset.sum_eq_single (rowOf hN w)]
  · rw [onehot_entry hN hN32 h, if_pos rfl, one_mul]
  · intro k _ hk
    rw [onehot_entry hN hN32 h, if_neg hk, zero_mul]
  · intro hn
    exact absurd (Finset.mem_univ _) hn

/-- The wrap of a negative index — the word plus `c` where the word tests below zero, the word itself elsewhere — does
    nothing to a word in range. -/
theorem wrap_of_inRange {w : BitVec 32} (h : InRange N w) (c : BitVec 32) :
    Scalar.select (IntOp.cmpi .slt w 0#32) (IntOp.addi w c) w = w := by
  have e : IntOp.cmpi .slt w 0#32 = 0#1 := eq_zero_of_ne_one fun e1 => by
    have := IntOp.cmpi_slt.1 e1
    rw [show (0#32 : BitVec 32).toInt = 0 from by decide] at this
    exact absurd h.1 (not_le.2 this)
  rw [e, select_zero]

/-- A maximum with the zero word is, read signed, at least 0. -/
theorem maxsi_zero_nonneg (x : BitVec 32) : 0 ≤ (IntOp.maxsi x 0#32).toInt := by
  unfold IntOp.maxsi
  split
  · rename_i h
    rw [BitVec.slt_iff_toInt_lt, show (0#32 : BitVec 32).toInt = 0 from by decide] at h
    exact le_of_lt h
  · exact le_of_eq (by decide)

end Idealize.ShloMosaic.OneHot

end
-- ==== Proof.OneHot.lean ====
/-
  The mathematics of the embedding lookup, apart from either program.

  A bucket word is a 32-bit word read as a signed integer. When it lies in [0, 512) it names a row of the 512-row
  table, and two ways of reading that row agree over the extended reals (Proof/LibOneHot.lean, at N = 512):

  * the one-hot way: compare the word with each of 0, 1, …, 511, turn each comparison bit into 0 or 1, and sum the
    products with the table's column — every term but the row's own is 0 · x = 0, the row's own is 1 · x = x (both
    hold for every extended real, so no finiteness is used);
  * the gather way: read the table at the word, clamped into [0, 511] — the clamp does nothing to a word already in
    range.

  `embed` is the common result: entry (p, q, d) is the table's entry (row of word (p, q), d) plus the bias d.
  `bucket` is the array of bucket words as both programs and the precondition compute it from the timestamps.
-/
import proofs.«154774_j77653008712021_1_alg».proof.Proof.LibOneHot

noncomputable section

open scoped BigOperators

namespace Cert.Embed

open Idealize.ShloMosaic Idealize.ShloMosaic.ValueIdx

/-- A bucket word names a row of the table: read signed it lies in [0, 512). -/
abbrev InRange (w : BitVec 32) : Prop := OneHot.InRange 512 w

/-- The row a word names once clamped into [0, 511], as a gather clamps it. -/
abbrev rowOf (w : BitVec 32) : Fin 512 := OneHot.rowOf (N := 512) (by decide) w

/-- THE LAW at 512 rows: the one-hot row of an in-range word times a column of the table is the column's entry at the
    word's row. -/
theorem onehot_sum {w : BitVec 32} (h : InRange w) (col : Fin 512 → EReal) :
    ∑ k : Fin 512, FloatOps.sitofp (F := Ideal) .f32 ((IntOp.cmpi .eq w (BitVec.ofNat 32 k.val)).setWidth 32) * col k
      = col (rowOf w) :=
  OneHot.onehot_sum (by decide) (by decide) h col

/-- Adding 512 to the words that test negative does nothing to an in-range word. -/
theorem wrap_of_inRange {w : BitVec 32} (h : InRange w) :
    Scalar.select (IntOp.cmpi .slt w 0#32) (IntOp.addi w 512#32) w = w :=
  OneHot.wrap_of_inRange h _

/-- THE RESULT both programs compute from in-range bucket words: entry (p, q, d) is the table's entry at the row of
    word (p, q) and column d, plus the bias at d. -/
def embed (idx : IVec ⟨2, ![64, 8192]⟩ 32) (W : FVec Ideal ⟨2, ![512, 64]⟩ .f32) (b : FVec Ideal ⟨1, ![64]⟩ .f32) :
    FVec Ideal ⟨3, ![64, 8192, 64]⟩ .f32 :=
  fun i => W (ix2 (rowOf (idx (ix2 (i 0) (i 1)))) (i 2)) + b (ix1 (i 2))

/-- THE BUCKET WORDS as both programs (and the precondition) compute them from the timestamps, at any float
    instance: the gap between consecutive timestamps divided by the bucket width 1953.125, floored, converted to a
    signed 32-bit word and raised to at least 0. The three side conditions are propositions about literal shapes, so
    any proofs of them give the same array. -/
def bucket {F : FTy → Type} [FloatOps F] (t : FVec F ⟨2, ![64, 8193]⟩ .f32)
    (h1 : (⟨2, ![64, 8193]⟩ : Shape).Slices ![0, 1] ⟨2, ![64, 8192]⟩)
    (h0 : (⟨2, ![64, 8193]⟩ : Shape).Slices ![0, 0] ⟨2, ![64, 8192]⟩)
    (hb : (⟨0, ![]⟩ : Shape).BroadcastsInDim ⟨2, ![64, 8192]⟩ (![] : Fin 0 → Fin 2)) : IVec ⟨2, ![64, 8192]⟩ 32 :=
  maxsi (fptosi 32 (Host.floor (Host.divf
      (subf (extractStridedSlice ⟨2, ![64, 8192]⟩ ![0, 1] t h1) (extractStridedSlice ⟨2, ![64, 8192]⟩ ![0, 0] t h0))
      (broadcastInDim ⟨2, ![64, 8192]⟩ ![] hb (constant (F := F) ⟨0, ![]⟩ .f32 0x44F42400#32)))))
    (broadcastInDim ⟨2, ![64, 8192]⟩ ![] hb (constantI ⟨0, ![]⟩ 32 0#32))

end Cert.Embed

end
-- ==== Proof.LibGatherRows3.lean ====
/-
  A gather of whole rows of a matrix at a two-dimensional array of row words, read at an index.

  What `W[idx]` of a table `W : [N, D]` at an integer array `idx : [R, C]` lowers to: a gather with offset axis 2,
  collapsed operand axis 0, start index map [0], index vector axis 2 and slice sizes [1, D], over the indices as
  `[R, C, 1]`. Result element (r, c, d) is the table at the row the start index `idx[r, c, 0]` names — read as a signed
  integer and clamped into [0, N − 1], as the gather clamps every start index — and at column d: on the row axis the
  operand index is the clamped start alone (the axis is collapsed, so it has no offset, and nothing is batched); on
  the column axis the start is 0 and the offset is the result's last coordinate. For every N, D, R, C and word width.
  A printed record with those lists is `rowsDims` by `rfl`.
-/
import Idealize.ShloMosaic.PureOps.Ideal
import Idealize.ShloMosaic.Lib.ValueIdx

noncomputable section

namespace Idealize.ShloMosaic.GatherRows3

open Idealize.ShloMosaic Idealize.ShloMosaic.ValueIdx

variable {α : Type}

/-- Those dimension numbers for a table `[N, D]`, start indices `[R, C, 1]` and result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE GATHER READ AT (r, c, d): the table at the row the start index (r, c, 0) names, read signed and clamped into
    [0, N − 1], and at column d. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowsDims N D R C wf) x idx (ix3 r c d)
      = x (ix2 ⟨min (idx (ix3 r c (0 : Fin 1))).toInt.toNat (N - 1), by omega⟩ d) := by
  unfold Host.gather
  congr 1
  funext a
  refine Fin.ext ?_
  match a with
  | ⟨0, _⟩ =>
    show GatherDims.start (rowsDims N D R C wf) (ix3 r c d) idx 0 + GatherDims.batchCoord (rowsDims N D R C wf) (ix3 r c d) 0
      + GatherDims.offCoord (rowsDims N D R C wf) (ix3 r c d) 0 = _
    have h0 : (0 : Fin 2) ∈ (rowsDims N D R C wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hsi : (rowsDims N D R C wf).siIdx (ix3 r c d) ⟨List.idxOf (0 : Fin 2) (rowsDims N D R C wf).startIndexMap,
        List.idxOf_lt_length_iff.2 h0⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start (rowsDims N D R C wf) (ix3 r c d) idx 1 + GatherDims.batchCoord (rowsDims N D R C wf) (ix3 r c d) 1
      + GatherDims.offCoord (rowsDims N D R C wf) (ix3 r c d) 1 = _
    have hne : ¬ (1 : Fin 2) ∈ ([0] : List (Fin 2)) := by decide
    have h1 : ¬ (1 : Fin 2) ∈ (rowsDims N D R C wf).startIndexMap := hne
    have hk : (1 : Fin 2) ∈ (rowsDims N D R C wf).sKept := (GatherDims.mem_sKept _ _).mpr ⟨hne, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Idealize.ShloMosaic.GatherRows3

end
-- ==== Proof.RefValue.lean ====
/-
  The reference at the ideal values, read at an index.

  The reference's @main computes the bucket words from the timestamps, wraps negative words by adding 512 (which
  does nothing to a word already at least 0), gathers one 64-entry row of the table per word — StableHLO's gather
  reads each start index as a signed integer and clamps it into [0, 511] — and adds the bias along the last axis.
  When every bucket word is in [0, 512) the clamp does nothing either, and the result is `embed` of the bucket words.
-/
import proofs.«154774_j77653008712021_1_alg».proof.Proof.Gen.ReferenceIdeal.Read
import proofs.«154774_j77653008712021_1_alg».proof.Proof.OneHot
import proofs.«154774_j77653008712021_1_alg».proof.Proof.LibGatherRows3

noncomputable section

namespace Cert.ReferenceIdeal.RefValue

open Cert.ReferenceIdeal Cert.ReferenceIdeal.Gen Cert.ReferenceIdeal.Read Idealize.ShloMosaic Idealize.ShloMosaic.ValueIdx
open Cert.Embed

local notation "GD" => gather_S512x64_S64x8192x1_S64x8192x64_2_0_n_n_0_2_164

/-- The reference's eighth stage is the bucket words. -/
theorem bucket_eq (t : FVec Ideal S64x8193 .f32) :
    val_main_v8 (F := Ideal) t = bucket t slices_S64x8193_S64x8192_0_1 slices_S64x8193_S64x8192_0_0 bcast_S_S64x8192 := rfl

/-- THE GATHER OF WHOLE ROWS read at (p, q, d): the table at the row the start index (p, q, 0) names — read signed and
    clamped into [0, 511] — and at column d (Proof/LibGatherRows3.lean at these extents; the printed record has its lists). -/
theorem gather_rows_apply {α : Type} (x : S512x64.Idx → α) (idx : IVec S64x8192x1 32) (p : Fin 64) (q : Fin 8192) (d : Fin 64) :
    Host.gather GD x idx (ix3 p q d) = x (ix2 (rowOf (idx (ix3 p q (0 : Fin 1)))) d) :=
  GatherRows3.gather_rows_apply (N := 512) (D := 64) (R := 64) (C := 8192) (by decide) (GatherDims.wf GD) x idx p q d

/-- THE REFERENCE IS `embed`: with every bucket word in [0, 512), its first result is the table's row at each word plus
    the bias. -/
theorem result_eq (t : FVec Ideal S64x8193 .f32) (W : FVec Ideal S512x64 .f32) (b : FVec Ideal S64 .f32)
    (hin : ∀ j, InRange (val_main_v8 (F := Ideal) t j)) :
    val_main_v18 (F := Ideal) t W b = embed (val_main_v8 (F := Ideal) t) W b := by
  funext i
  obtain ⟨p, q, d, rfl⟩ : ∃ (p : Fin 64) (q : Fin 8192) (d : Fin 64), i = ix3 p q d := ⟨i 0, i 1, i 2, eq_ix3 i⟩
  rw [val_main_v18_apply]
  have hg : val_main_v15 (F := Ideal) t W (ix3 p q d) = W (ix2 (rowOf (val_main_v8 (F := Ideal) t (ix2 p q))) d) := by
    unfold val_main_v15
    rw [gather_rows_apply, val_main_v14_apply]
    have e : idx_main_v14 (ix3 p q (0 : Fin 1)) = ix2 p q :=
      funext fun a => Fin.ext (by match a with | ⟨0, _⟩ => rfl | ⟨1, _⟩ => rfl)
    rw [e, val_main_v13_apply, val_main_v10_apply, val_main_v12_apply, val_main_v9_apply, val_main_v11_apply,
      val_main_c_0_apply, val_main_c_1_apply, wrap_of_inRange (hin _)]
  have hb : val_main_v17 (F := Ideal) b (ix3 p q d) = b (ix1 d) := by
    rw [val_main_v17_apply, val_main_v16_apply]
    exact congrArg b (funext fun a => Fin.ext (by match a with | ⟨0, _⟩ => rfl))
  rw [hg, hb]
  rfl

end Cert.ReferenceIdeal.RefValue

end
-- ==== Proof.Domain.lean ====
/-
  What the precondition says of the bucket words.

  The precondition is a conjunction of four `all`s; the last one says that every bucket word, compared signed
  with 512, is below it. A bucket word is a maximum with the zero word, so read signed it is at least 0. Together:
  every bucket word is in [0, 512), at any float instance.
-/
import proofs.«154774_j77653008712021_1_alg».proof.Proof.Gen.Pre_finite_inputs
import proofs.«154774_j77653008712021_1_alg».proof.Proof.OneHot
import Idealize.ShloMosaic.Lib.ReduceAll

noncomputable section

namespace Cert.Pre_finite_inputs.Domain

open Cert.Pre_finite_inputs Cert.Pre_finite_inputs.Gen Idealize.ShloMosaic Idealize.ShloMosaic.ValueIdx
open Cert.Embed

instance : Subsingleton S_.Idx := ⟨fun _ _ => funext fun d => d.elim0⟩

variable {F : FTy → Type} [FloatOps F]

/-- THE DOMAIN: where the precondition holds, every bucket word names a row of the table. -/
theorem inRange_of_pre (a0 : IVec S64x8192 32) (t : FVec F S64x8193 .f32) (W : FVec F S512x64 .f32) (b : FVec F S64 .f32)
    (h : fn (F := F) a0 t W b = fun _ => 1#1) (j : S64x8192.Idx) :
    InRange (bucket t slices_S64x8193_S64x8192_0_1 slices_S64x8193_S64x8192_0_0 bcast_S_S64x8192 j) := by
  have h' := congrFun h ix0
  dsimp only [fn, fn_part1] at h'
  obtain ⟨-, h4⟩ := IntOp.andi_eq_one.1 h'
  have h5 := Host.reduce_andi_all _ _ _ _ ix0 h4 j
  have h6 := IntOp.cmpi_slt.1 h5
  refine ⟨OneHot.maxsi_zero_nonneg _, ?_⟩
  have e512 : (512#32 : BitVec 32).toInt = ((512 : ℕ) : ℤ) := by decide
  rw [← e512]
  exact h6

end Cert.Pre_finite_inputs.Domain

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.KernelPayload.lean ====
/-
  The kernel body's arithmetic at the ideal values, read at an index.

  The body takes one block of 64 × 256 bucket words, the whole table and the bias. It compares each word with
  0, 1, …, 511 along a new last axis, turns the comparison bits into 0 / 1 (a change of float format is the identity
  here), lays the 64 × 256 one-hot rows out as the 16384 rows of a matrix (row p · 256 + q for word (p, q)), multiplies
  that matrix by the table into a zero accumulator, lays the product back out as 64 × 256 × 64 and adds the bias along
  the last axis. So entry (p, q, d) of what it stores is the sum over k < 512 of [word (p, q) = k] · table (k, d), plus
  bias d — and by the one-hot law that sum is the table's entry at the word's row when the word is in [0, 512).
-/
import proofs.«154774_j77653008712021_1_alg».proof.Proof.Gen.KernelIdeal.Skeleton
import proofs.«154774_j77653008712021_1_alg».proof.Proof.OneHot
import proofs.«154774_j77653008712021_1_alg».proof.Proof.LibPlainDot
import Idealize.ShloMosaic.Lib.Pipeline.Value

noncomputable section

namespace Cert.KernelIdeal.Payload

open Cert.KernelIdeal Cert.KernelIdeal.Gen Idealize.ShloMosaic Idealize.ShloMosaic.ValueIdx
open Cert.Embed

/-- Row p · 256 + q of the 16384-row matrix: where the one-hot row of word (p, q) lies. -/
def rowAt (p : Fin 64) (q : Fin 256) : Fin 16384 := ⟨p.val * 256 + q.val, by have := p.isLt; have := q.isLt; omega⟩

/-- The bias, cast to one 1 × 1 × 64 slab and repeated over the block, reads at (p, q, d) the bias at d. -/
theorem bias_apply {α : Type} (x2 : S64.Idx → α) (hc : S64.ShapeCasts S1x1x64) (hb : S1x1x64.Broadcasts S64x256x64)
    (p : Fin 64) (q : Fin 256) (d : Fin 64) :
    broadcastTo S64x256x64 (shapeCast S1x1x64 x2 hc) hb (ix3 p q d) = x2 (ix1 d) := by
  refine (broadcastTo_apply _ hb (ix3 p q d) (ix3 (0 : Fin 1) (0 : Fin 1) d) (fun a => ?_)).trans ?_
  · match a with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show d.val = if (64 : ℕ) = 1 then 0 else d.val; rw [if_neg (by decide)]
  · refine shapeCast_apply x2 hc _ (ix1 d) ?_
    rw [Shape.rowMajor_val_one, Shape.rowMajor_val_three]
    show d.val = (0 * 1 + 0) * 64 + d.val
    omega

/-- The one-hot matrix at (row of (p, q), k): the bit "word (p, q) is k", widened and converted. -/
theorem onehot_block_apply (x0 : IVec S64x256 32) (h1 : S64x256.ShapeCasts S64x256)
    (hio : S64x256x512.Iotas .tc 32 [2]) (h3 : S64x256.ShapeCasts S64x256x1) (hbc : S64x256x1.Broadcasts S64x256x512)
    (hlt : 1 < 32) (hbits : FTy.bits .bf16 < FTy.bits .f32) (h9 : S64x256x512.ShapeCasts S16384x512)
    (p : Fin 64) (q : Fin 256) (k : Fin 512) :
    shapeCast S16384x512 (truncf (F := Ideal) .bf16 (sitofp .f32 (extui 32 (cmpi .eq
        (broadcastTo S64x256x512 (shapeCast S64x256x1 (shapeCast S64x256 x0 h1) h3) hbc)
        (iota .tc S64x256x512 32 [2] hio)) hlt)) hbits) h9 (ix2 (rowAt p q) k)
      = FloatOps.sitofp (F := Ideal) .f32 ((IntOp.cmpi .eq (x0 (ix2 p q)) (BitVec.ofNat 32 k.val)).setWidth 32) := by
  refine (shapeCast_apply _ h9 (ix2 (rowAt p q) k) (ix3 p q k) ?_).trans ?_
  · rw [Shape.rowMajor_val_three, Shape.rowMajor_val_two]
    show (p.val * 256 + q.val) * 512 + k.val = (p.val * 256 + q.val) * 512 + k.val
    rfl
  · show FloatOps.sitofp (F := Ideal) .f32 ((IntOp.cmpi .eq
        (broadcastTo S64x256x512 (shapeCast S64x256x1 (shapeCast S64x256 x0 h1) h3) hbc (ix3 p q k))
        (iota .tc S64x256x512 32 [2] hio (ix3 p q k))).setWidth 32) = _
    have e2 : iota .tc S64x256x512 32 [2] hio (ix3 p q k) = BitVec.ofNat 32 k.val :=
      iota_single_apply .tc S64x256x512 32 2 hio (ix3 p q k)
    have e4 : broadcastTo S64x256x512 (shapeCast S64x256x1 (shapeCast S64x256 x0 h1) h3) hbc (ix3 p q k) = x0 (ix2 p q) := by
      refine (broadcastTo_apply _ hbc (ix3 p q k) (ix3 p q (0 : Fin 1)) (fun a => ?_)).trans ?_
      · match a with
        | ⟨0, _⟩ => show p.val = if (64 : ℕ) = 1 then 0 else p.val; rw [if_neg (by decide)]
        | ⟨1, _⟩ => show q.val = if (256 : ℕ) = 1 then 0 else q.val; rw [if_neg (by decide)]
        | ⟨2, _⟩ => show (0 : ℕ) = if (1 : ℕ) = 1 then 0 else k.val; rw [if_pos rfl]
      · rw [shapeCast_self]
        refine shapeCast_apply x0 h3 _ (ix2 p q) ?_
        rw [Shape.rowMajor_val_two, Shape.rowMajor_val_three]
        show p.val * 256 + q.val = (p.val * 256 + q.val) * 1 + 0
        omega
    rw [e2, e4]

/-- THE BODY'S STORED VALUE at (p, q, d), when word (p, q) of the block is in [0, 512): the table's entry at the word's
    row and column d, plus the bias at d. -/
theorem pay_apply (x0 : Vec Ideal S64x256 .i32) (x1 : Vec Ideal S512x64 .f32) (x2 : Vec Ideal S64 .f32)
    (p : Fin 64) (q : Fin 256) (d : Fin 64) (hin : InRange (x0 (ix2 p q))) :
    k0_pay1 (F := Ideal) x0 x1 x2 (ix3 p q d) = x1 (ix2 (rowOf (x0 (ix2 p q))) d) + x2 (ix1 d) := by
  unfold k0_pay1
  dsimp only
  refine (addf_apply _ _ _).trans ?_
  refine congrArg₂ (· + ·) ?_ (bias_apply x2 _ _ p q d)
  refine (shapeCast_apply _ _ (ix3 p q d) (ix2 (rowAt p q) d) ?_).trans ?_
  · rw [Shape.rowMajor_val_two, Shape.rowMajor_val_three]
    show (p.val * 256 + q.val) * 64 + d.val = (p.val * 256 + q.val) * 64 + d.val
    rfl
  · refine (PlainDot.matmul_zero_apply (M := 16384) (K := 512) (N := 64) none _ _ (rowAt p q) d).trans ?_
    refine Eq.trans (Finset.sum_congr rfl fun k _ => ?_) (onehot_sum hin fun k => x1 (ix2 k d))
    exact congrArg (· * x1 (ix2 k d)) (onehot_block_apply x0 _ _ _ _ _ _ _ p q k)

end Cert.KernelIdeal.Payload

end
-- ==== Proof.KernelValue.lean ====
/-
  The idealized kernel's run, read as values.

  @main computes the bucket words on the host (`main_v8`), runs the embedding region over 32 grid points, and slices the
  timestamps once more after the region. Point t of the grid is handed columns 256 t … 256 t + 255 of the bucket words,
  the whole table and the whole bias, and writes back block (all 64 rows, those 256 columns, all 64 channels) of the
  result. With every bucket word in [0, 512) each written block is the corresponding block of `embed` (the body's
  arithmetic at an index, Proof/KernelPayload.lean), the 32 blocks tile the result, so the result IS `embed`; the line
  after the region reads only the timestamps, which no window writes.
-/
import proofs.«154774_j77653008712021_1_alg».proof.Proof.Gen.KernelIdeal.Frame
import proofs.«154774_j77653008712021_1_alg».proof.Proof.KernelPayload
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Embed

/-! ## One stored entry against one entry of `embed` -/

/-- If a block of bucket words `x0` is the words `idx` read through `e0`, and `e3` places the stored block's index
    (p, q, d) at (p, T · 256 + q, d) where `e0` places (p, q) at (p, T · 256 + q), then the body's stored value at an
    index is `embed` at the placed index — provided the word there is in [0, 512). -/
theorem point_eq (x0 : Vec Ideal S64x256 .i32) (W : Vec Ideal S512x64 .f32) (b : Vec Ideal S64 .f32)
    (idx : IVec S64x8192 32) (T : Nat) (e0 : S64x256.Idx → S64x8192.Idx) (e3 : S64x256x64.Idx → S64x8192x64.Idx)
    (hx0 : ∀ z, x0 z = idx (e0 z))
    (he00 : ∀ z, ((e0 z) 0).val = (z 0).val) (he01 : ∀ z, ((e0 z) 1).val = T * 256 + (z 1).val)
    (he30 : ∀ y, ((e3 y) 0).val = (y 0).val) (he31 : ∀ y, ((e3 y) 1).val = T * 256 + (y 1).val)
    (he32 : ∀ y, ((e3 y) 2).val = (y 2).val)
    (hin : ∀ j, InRange (idx j)) (y : S64x256x64.Idx) :
    k0_pay1 (F := Ideal) x0 W b y = embed idx W b (e3 y) := by
  obtain ⟨p, q, d, rfl⟩ : ∃ (p : Fin 64) (q : Fin 256) (d : Fin 64), y = ix3 p q d := ⟨y 0, y 1, y 2, eq_ix3 y⟩
  have hw : x0 (ix2 p q) = idx (ix2 ((e3 (ix3 p q d)) 0) ((e3 (ix3 p q d)) 1)) := by
    rw [hx0]
    refine congrArg idx (funext fun a => Fin.ext ?_)
    match a with
    | ⟨0, _⟩ => exact (he00 (ix2 p q)).trans (he30 (ix3 p q d)).symm
    | ⟨1, _⟩ => exact (he01 (ix2 p q)).trans (he31 (ix3 p q d)).symm
  have hd : (e3 (ix3 p q d)) 2 = d := Fin.ext (he32 (ix3 p q d))
  rw [Payload.pay_apply x0 W b p q d (by rw [hw]; exact hin _)]
  unfold embed
  rw [hw, hd]

variable (m : (ℓ : Loc nD τ sig) → Buf (Elt Ideal) ℓ) (ρ : Dev nD → PrngReg)

/-! ## The host lines before the region -/

/-- The region finds in `main_v8` the bucket words of the timestamps as launched. -/
theorem V_main_v8 (c : Dev nD) :
    (V m c main_v8 : S64x8192.Idx → BitVec 32)
      = bucket (F := Ideal) (m ((c : Thread nD τ).loc main_arg1)) slices_S64x8193_S64x8192_0_1 slices_S64x8193_S64x8192_0_0 bcast_S_S64x8192 := by
  show StableHlo.after hostOps0 (fun b => m (c, b)) (Proc.devRef .tc main_v8) = _
  after_results
  rfl

/-! ## What a point writes back -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 32 points: the words' and the result's blocks move along the column axis
    with the point, the table's and the bias's stay. -/
theorem index_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- Every block of 256 columns is some point's. -/
theorem index_onto : ∀ q1 : Fin 32, ∃ t : Fin cfg0.N, win0_3.index t = ![0, q1.val, 0] :=
  (by decide +kernel : ∀ q1 : Fin 32, ∃ t : Fin grid0.N, win0_3.index t = ![0, q1.val, 0])

/-- The table's window is the whole table at every point. -/
theorem table_block (c : Dev nD) (t : Fin cfg0.N) : iblk m c 1 t = V m c main_arg2 := by
  obtain ⟨-, -, e2, e3, -⟩ := index_facts t
  funext z
  show V m c main_arg2 (((cfg0.win 1).blk t).view.emb z) = V m c main_arg2 z
  refine congrArg (V m c main_arg2) (funext fun a => Fin.ext ?_)
  match a with
  | ⟨0, _⟩ => show win0_1.index t (0 : Fin 2) * 512 + 1 * (z 0).val = (z 0).val; omega
  | ⟨1, _⟩ => show win0_1.index t (1 : Fin 2) * 64 + 1 * (z 1).val = (z 1).val; omega

/-- The bias's window is the whole bias at every point. -/
theorem bias_block (c : Dev nD) (t : Fin cfg0.N) : iblk m c 2 t = V m c main_arg3 := by
  obtain ⟨-, -, -, -, e4, -⟩ := index_facts t
  funext z
  show V m c main_arg3 (((cfg0.win 2).blk t).view.emb z) = V m c main_arg3 z
  refine congrArg (V m c main_arg3) (funext fun a => Fin.ext ?_)
  match a with
  | ⟨0, _⟩ => show win0_2.index t (0 : Fin 1) * 64 + 1 * (z 0).val = (z 0).val; omega

/-- WHAT POINT `t` WRITES BACK is block `t` of `embed` of the arrays as the region finds them. -/
theorem flushed_eq (c : Dev nD) (hin : ∀ j, InRange ((V m c main_v8 : S64x8192.Idx → BitVec 32) j)) (t : Fin cfg0.N) :
    (dats m 0 c).flushed 3 t
      = ((cfg0.win 3).blk t).view.read (Elt Ideal) (embed (V m c main_v8) (V m c main_arg2) (V m c main_arg3)) := by
  show (cfg0.win 3).cut (grid0.coords t) ((dats m 0 c).after 3 t) = _
  rw [after0_3]
  unfold out0_3
  rw [View.canon_unit_zero zero3]
  simp only [View.ld_unit_zero (S := S64x256) zero2, View.ld_unit_zero (S := S512x64) zero2, View.ld_unit_zero (S := S64) zero1]
  rw [table_block, bias_block]
  obtain ⟨e0, e1, -, -, -, e5, e6, e7⟩ := index_facts t
  funext y
  exact point_eq (iblk m c 0 t) (V m c main_arg2) (V m c main_arg3) (V m c main_v8) t.val
    (((cfg0.win 0).blk t).view.emb) (((cfg0.win 3).blk t).view.emb)
    (fun _ => rfl)
    (fun z => by show win0_0.index t (0 : Fin 2) * 64 + 1 * (z 0).val = (z 0).val; omega)
    (fun z => by show win0_0.index t (1 : Fin 2) * 256 + 1 * (z 1).val = t.val * 256 + (z 1).val; omega)
    (fun y => by show win0_3.index t (0 : Fin 3) * 64 + 1 * (y 0).val = (y 0).val; omega)
    (fun y => by show win0_3.index t (1 : Fin 3) * 256 + 1 * (y 1).val = t.val * 256 + (y 1).val; omega)
    (fun y => by show win0_3.index t (2 : Fin 3) * 64 + 1 * (y 2).val = (y 2).val; omega)
    hin y

/-! ## The 32 blocks tile the result -/

/-- An index of the result is in point `t`'s block iff each coordinate is in the block's range on its axis. -/
theorem mem_blk (t : Fin cfg0.N) (i : S64x8192x64.Idx) :
    i ∈ ((cfg0.win 3).blk t).view.set ↔ ∀ a : Fin 3, win0_3.index t a * S64x256x64.size a ≤ (i a).val ∧ (i a).val < win0_3.index t a * S64x256x64.size a + S64x256x64.size a := by
  show i ∈ ((View.whole main_v9).slice (win0_3.rect t)).set ↔ _
  rw [View.set_slice_whole, Rect.mem_set_unit]
  exact Iff.rfl

/-- Every index of the result is in the block of the point its column falls to. -/
theorem cover (i : S64x8192x64.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  have hi2 : (i 2).val < 64 := (i 2).isLt
  obtain ⟨t, ht⟩ := index_onto ⟨(i 1).val / 256, by omega⟩
  have q0 : win0_3.index t (0 : Fin 3) = 0 := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE RESULT after the run is `embed` of the bucket words, the table and the bias as launched. -/
theorem final (c : Dev nD)
    (hin : ∀ j, InRange (bucket (F := Ideal) (m ((c : Thread nD τ).loc main_arg1)) slices_S64x8193_S64x8192_0_1 slices_S64x8193_S64x8192_0_0 bcast_S_S64x8192 j)) :
    (dats m 0 c).arrAt 3 cfg0.N
      = embed (bucket (F := Ideal) (m ((c : Thread nD τ).loc main_arg1)) slices_S64x8193_S64x8192_0_1 slices_S64x8193_S64x8192_0_0 bcast_S_S64x8192)
          (m ((c : Thread nD τ).loc main_arg2)) (m ((c : Thread nD τ).loc main_arg3)) := by
  have hin' : ∀ j, InRange ((V m c main_v8 : S64x8192.Idx → BitVec 32) j) := by rw [V_main_v8]; exact hin
  rw [(dats m 0 c).arrAt_eq_of_cover 3 _ (fun t _ => flushed_eq m c hin' t) cover, V_main_v8, V_main_arg2, V_main_arg3]

/-! ## The line after the region -/

/-- The slice after the region reads the timestamps as launched: no window's array is the timestamps'. -/
theorem tail_main_v10 (c : Dev nD) :
    Pipeline.afterTail₀ cfgs (dats m) 0 (V0 m) [hostOps1] c main_v10
      = extractStridedSlice S64x8192 ![0, 0] (m ((c : Thread nD τ).loc main_arg1)) slices_S64x8193_S64x8192_0_0 := by
  unfold Pipeline.afterTail₀
  show StableHlo.after hostOps1 _ (Proc.devRef .tc main_v10) = _
  after_results
  rw [Pipeline.withArrays_of_ne _ c (V0 m c) _ main_arg1 (by exact (by decide : ∀ w, Pipeline.arrRef spec0 w ≠ main_arg1))]
  exact congrArg (fun x => extractStridedSlice S64x8192 ![0, 0] x slices_S64x8193_S64x8192_0_0) (V_main_arg1 m c)

/-! ## The run -/

/-- THE KERNEL'S RUN AS VALUES: where every bucket word is in [0, 512), every weakly fair execution terminates with the
    first result at `embed` of the launched arrays, the second at the timestamps' first 8192 columns, and the arguments
    unchanged. -/
theorem run
    (hin : ∀ (c : Dev nD) j, InRange (bucket (F := Ideal) (m ((c : Thread nD τ).loc main_arg1)) slices_S64x8193_S64x8192_0_1 slices_S64x8193_S64x8192_0_0 bcast_S_S64x8192 j)) :
    θ_run defs (onTc (τ := τ) (main (F := Ideal))) ⟨m, fun _ => 0, ρ⟩ fun r => ∀ c : Dev nD,
      r.2.mem ((c.tc : Thread nD τ).loc main_v9)
        = embed (bucket (F := Ideal) (m ((c : Thread nD τ).loc main_arg1)) slices_S64x8193_S64x8192_0_1 slices_S64x8193_S64x8192_0_0 bcast_S_S64x8192)
            (m ((c : Thread nD τ).loc main_arg2)) (m ((c : Thread nD τ).loc main_arg3))
      ∧ r.2.mem ((c.tc : Thread nD τ).loc main_v10)
        = extractStridedSlice S64x8192 ![0, 0] (m ((c : Thread nD τ).loc main_arg1)) slices_S64x8193_S64x8192_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1 3).trans (final m c (hin c)),
       ((h c).2 main_v10 (Pipeline.mem_restRefs_of main_v10 (by decide) (by decide))).trans (tail_main_v10 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c))),
       ((h c).1 2).trans (((dats m 0 c).arrAt_in 2 rfl _).trans ((A_eq m c 2).trans (V_main_arg3 m c)))⟩)
    (run_main m ρ)

end Cert.KernelIdeal.Whole

end
-- ==== Proof.lean ====
/-
  An embedding lookup by one-hot matrix product against a row gather.

  Both programs turn the gaps between consecutive timestamps into bucket words (gap / 1953.125, floored, converted to
  a signed 32-bit word, raised to at least 0). The kernel then compares each word with 0 … 511, multiplies the resulting
  0 / 1 rows by the 512 × 64 table and adds the bias; the reference gathers the table's row at each word — a gather
  clamps its start index into [0, 511] — and adds the bias. Both also return the timestamps' first 8192 columns.

  The two first results agree exactly where every bucket word is below 512: there the one-hot row has its single 1 at the
  word's own row, so the product is that row of the table (0 · x = 0 and 1 · x = x hold for every extended real, so
  finiteness is never used), and the gather's clamp does nothing. A word of 512 or more would give the kernel an
  all-zero row and the reference the table's last row; the precondition's last conjunct — every bucket word below 512,
  the reference's own index staying inside the table — excludes it (Proof/Domain.lean reads it back).

  Proof/LibOneHot.lean has the one-hot law for a table of any height and Proof/LibGatherRows3.lean the gather of whole
  rows read at an index; Proof/LibPlainDot.lean reads a plain matrix product at an entry as a sum over the contracted
  axis. Proof/OneHot.lean states them at 512 rows with the common result `embed`; Proof/RefValue.lean reads the
  reference's run as `embed`; Proof/KernelPayload.lean reads the kernel body's stored value at an index;
  Proof/KernelValue.lean carries it from the 32 written blocks to the whole result and through the host lines around the
  region. The three frames are the generated
  ones (the reference's is its run with the results dropped); nothing was rewritten by the idealization, so the kernel
  and its idealization are one text.
-/
import proofs.«154774_j77653008712021_1_alg».proof.Defs
import proofs.«154774_j77653008712021_1_alg».proof.Proof.Gen.Kernel
import proofs.«154774_j77653008712021_1_alg».proof.Proof.Gen.Kernel.Skeleton
import proofs.«154774_j77653008712021_1_alg».proof.Proof.Gen.Kernel.Launch
import proofs.«154774_j77653008712021_1_alg».proof.Proof.Gen.Kernel.Points
import proofs.«154774_j77653008712021_1_alg».proof.Proof.Gen.Kernel.Frame
import proofs.«154774_j77653008712021_1_alg».proof.Proof.Gen.KernelIdeal
import proofs.«154774_j77653008712021_1_alg».proof.Proof.Gen.KernelIdeal.Skeleton
import proofs.«154774_j77653008712021_1_alg».proof.Proof.Gen.KernelIdeal.Launch
import proofs.«154774_j77653008712021_1_alg».proof.Proof.Gen.KernelIdeal.Points
import proofs.«154774_j77653008712021_1_alg».proof.Proof.Gen.KernelIdeal.Frame
import proofs.«154774_j77653008712021_1_alg».proof.Proof.Gen.ReferenceIdeal
import proofs.«154774_j77653008712021_1_alg».proof.Proof.Gen.Pre_finite_inputs
import proofs.«154774_j77653008712021_1_alg».proof.Proof.Gen.ReferenceIdeal.Run
import proofs.«154774_j77653008712021_1_alg».proof.Proof.Gen.ReferenceIdeal.Read
import proofs.«154774_j77653008712021_1_alg».proof.Proof.RefValue
import proofs.«154774_j77653008712021_1_alg».proof.Proof.Domain
import proofs.«154774_j77653008712021_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Where the precondition holds every bucket word is in [0, 512); there the kernel's first result is `embed` of the
    launched arrays and so is the reference's, of arrays that agree; the second results are one slice of the timestamps. -/
theorem algebraic : Cert.algebraic_KernelIdeal_ReferenceIdeal := by
  intro m ρ m' ρ' hpre hagree
  have hin : ∀ (c : Dev Cert.KernelIdeal.nD) j, Cert.Embed.InRange
      (Cert.Embed.bucket (F := Ideal) (m ((c : Thread Cert.KernelIdeal.nD Cert.KernelIdeal.τ).loc Cert.KernelIdeal.main_arg1))
        Cert.KernelIdeal.Gen.slices_S64x8193_S64x8192_0_1 Cert.KernelIdeal.Gen.slices_S64x8193_S64x8192_0_0
        Cert.KernelIdeal.Gen.bcast_S_S64x8192 j) :=
    fun c j => Cert.Pre_finite_inputs.Domain.inRange_of_pre _ _ _ _ (hpre c) j
  refine ⟨_, _, Cert.KernelIdeal.Whole.run m ρ hin, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).2.1, (hagree c).2.2.1, (hagree c).2.2.2]
    exact (Cert.ReferenceIdeal.Read.val_main_v18_eq _ _ _).trans
      (Cert.ReferenceIdeal.RefValue.result_eq _ _ _ (fun j => hin c j))
  · rw [(hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
